-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x262144 : Shape := ⟨2, ![128, 262144]⟩
abbrev S128 : Shape := ⟨1, ![128]⟩
abbrev S_ : Shape := ⟨0, ![]⟩

class Facts : Prop where
  bcast_S_S128x262144 : S_.BroadcastsInDim S128x262144 (![] : Fin 0 → Fin S128x262144.rank)
  reducesTo_S128x262144_S_d0_1 : S128x262144.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x262144 .f32) (main_arg1 : IVec S128 32) : IVec S_ 1 :=
  let main_v0 : FVec F S128x262144 .f32 := Host.absf main_arg0
  let main_cst : FVec F S_ .f32 := constant S_ .f32 0x7F800000#32
  let main_v1 : FVec F S128x262144 .f32 := broadcastInDim S128x262144 ![] bcast_S_S128x262144 main_cst
  let main_v2 : IVec S128x262144 1 := cmpf .olt main_v0 main_v1
  let main_c : IVec S_ 1 := constantI S_ 1 1#1
  let main_v3 : IVec S_ 1 := (fun x v => Host.reduce IntOp.andi x v reducesTo_S128x262144_S_d0_1 h_S_) main_v2 main_c
  let main_c_0 : IVec S_ 32 := constantI S_ 32 0#32
  let main_v4 : IVec S128 32 := broadcastInDim S128 ![] bcast_S_S128 main_c_0
  let main_v5 : IVec S128 1 := cmpi .sge main_arg1 main_v4
  let main_c_1 : IVec S_ 1 := constantI S_ 1 1#1
  let main_v6 : IVec S_ 1 := (fun x v => Host.reduce IntOp.andi x v reducesTo_S128_S_d0 h_S_) main_v5 main_c_1
  let main_v7 : IVec S_ 1 := andi main_v3 main_v6
  main_v7
-- ==== Kernel.lean ====
abbrev S128x262144 : Shape := ⟨2, ![128, 262144]⟩
abbrev S128 : Shape := ⟨1, ![128]⟩
abbrev S128x1 : Shape := ⟨2, ![128, 1]⟩
abbrev S128x235930 : Shape := ⟨2, ![128, 235930]⟩
abbrev S8x262144 : Shape := ⟨2, ![8, 262144]⟩
abbrev S8x1 : Shape := ⟨2, ![8, 1]⟩
abbrev S8x235930 : Shape := ⟨2, ![8, 235930]⟩
abbrev S8x16384 : Shape := ⟨2, ![8, 16384]⟩
abbrev S8x6554 : Shape := ⟨2, ![8, 6554]⟩

abbrev nBuf : Space → Nat
  | .hbm => 4
  | .vmem => 6
  | .smem => 0
  | _ => 0

abbrev bufTy : (tb : Table) → Fin (tcTables nBuf tb) → BufTy
  | .hbm, ⟨0, _⟩ => ⟨S128x262144, .f32⟩
  | .hbm, ⟨1, _⟩ => ⟨S128, .i32⟩
  | .hbm, ⟨2, _⟩ => ⟨S128x1, .i32⟩
  | .hbm, ⟨3, _⟩ => ⟨S128x235930, .f32⟩
  | .local _ .vmem, ⟨0, _⟩ => ⟨S8x262144, .f32⟩
  | .local _ .vmem, ⟨1, _⟩ => ⟨S8x262144, .f32⟩
  | .local _ .vmem, ⟨2, _⟩ => ⟨S8x1, .i32⟩
  | .local _ .vmem, ⟨3, _⟩ => ⟨S8x1, .i32⟩
  | .local _ .vmem, ⟨4, _⟩ => ⟨S8x235930, .f32⟩
  | .local _ .vmem, ⟨5, _⟩ => ⟨S8x235930, .f32⟩
  | _, _ => ⟨S128x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x235930 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128_S128x1 : S128.ShapeCasts S128x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  iota_S8x16384_d1_w32 : S8x16384.Iotas .tc 32 [1]
  broadcasts_S8x1_S8x16384 : S8x1.Broadcasts S8x16384
  inb_S8x262144_S8x16384_0_0 : ∀ a, (![0, 0] : Fin 2 → Nat) a + S8x16384.size a ≤ S8x262144.size a
  h_S8x16384 : 0 < S8x16384.numel
  inb_S8x262144_S8x16384_0_26214 : ∀ a, (![0, 26214] : Fin 2 → Nat) a + S8x16384.size a ≤ S8x262144.size a
  inb_S8x235930_S8x16384_0_0 : ∀ a, (![0, 0] : Fin 2 → Nat) a + S8x16384.size a ≤ S8x235930.size a
  inb_S8x262144_S8x16384_0_16384 : ∀ a, (![0, 16384] : Fin 2 → Nat) a + S8x16384.size a ≤ S8x262144.size a
  inb_S8x262144_S8x16384_0_42598 : ∀ a, (![0, 42598] : Fin 2 → Nat) a + S8x16384.size a ≤ S8x262144.size a
  inb_S8x235930_S8x16384_0_16384 : ∀ a, (![0, 16384] : Fin 2 → Nat) a + S8x16384.size a ≤ S8x235930.size a
  inb_S8x262144_S8x16384_0_32768 : ∀ a, (![0, 32768] : Fin 2 → Nat) a + S8x16384.size a ≤ S8x262144.size a
  inb_S8x262144_S8x16384_0_58982 : ∀ a, (![0, 58982] : Fin 2 → Nat) a + S8x16384.size a ≤ S8x262144.size a
  inb_S8x235930_S8x16384_0_32768 : ∀ a, (![0, 32768] : Fin 2 → Nat) a + S8x16384.size a ≤ S8x235930.size a
  inb_S8x262144_S8x16384_0_49152 : ∀ a, (![0, 49152] : Fin 2 → Nat) a + S8x16384.size a ≤ S8x262144.size a
  inb_S8x262144_S8x16384_0_75366 : ∀ a, (![0, 75366] : Fin 2 → Nat) a + S8x16384.size a ≤ S8x262144.size a
  inb_S8x235930_S8x16384_0_49152 : ∀ a, (![0, 49152] : Fin 2 → Nat) a + S8x16384.size a ≤ S8x235930.size a
  inb_S8x262144_S8x16384_0_65536 : ∀ a, (![0, 65536] : Fin 2 → Nat) a + S8x16384.size a ≤ S8x262144.size a
  inb_S8x262144_S8x16384_0_91750 : ∀ a, (![0, 91750] : Fin 2 → Nat) a + S8x16384.size a ≤ S8x262144.size a
  inb_S8x235930_S8x16384_0_65536 : ∀ a, (![0, 65536] : Fin 2 → Nat) a + S8x16384.size a ≤ S8x235930.size a
  inb_S8x262144_S8x16384_0_81920 : ∀ a, (![0, 81920] : Fin 2 → Nat) a + S8x16384.size a ≤ S8x262144.size a
  inb_S8x262144_S8x16384_0_108134 : ∀ a, (![0, 108134] : Fin 2 → Nat) a + S8x16384.size a ≤ S8x262144.size a
  inb_S8x235930_S8x16384_0_81920 : ∀ a, (![0, 81920] : Fin 2 → Nat) a + S8x16384.size a ≤ S8x235930.size a
  inb_S8x262144_S8x16384_0_98304 : ∀ a, (![0, 98304] : Fin 2 → Nat) a + S8x16384.size a ≤ S8x262144.size a
  inb_S8x262144_S8x16384_0_124518 : ∀ a, (![0, 124518] : Fin 2 → Nat) a + S8x16384.size a ≤ S8x262144.size a
  inb_S8x235930_S8x16384_0_98304 : ∀ a, (![0, 98304] : Fin 2 → Nat) a + S8x16384.size a ≤ S8x235930.size a
  inb_S8x262144_S8x16384_0_114688 : ∀ a, (![0, 114688] : Fin 2 → Nat) a + S8x16384.size a ≤ S8x262144.size a
  inb_S8x262144_S8x16384_0_140902 : ∀ a, (![0, 140902] : Fin 2 → Nat) a + S8x16384.size a ≤ S8x262144.size a
  inb_S8x235930_S8x16384_0_114688 : ∀ a, (![0, 114688] : Fin 2 → Nat) a + S8x16384.size a ≤ S8x235930.size a
  inb_S8x262144_S8x16384_0_131072 : ∀ a, (![0, 131072] : Fin 2 → Nat) a + S8x16384.size a ≤ S8x262144.size a
  inb_S8x262144_S8x16384_0_157286 : ∀ a, (![0, 157286] : Fin 2 → Nat) a + S8x16384.size a ≤ S8x262144.size a
  inb_S8x235930_S8x16384_0_131072 : ∀ a, (![0, 131072] : Fin 2 → Nat) a + S8x16384.size a ≤ S8x235930.size a
  inb_S8x262144_S8x16384_0_147456 : ∀ a, (![0, 147456] : Fin 2 → Nat) a + S8x16384.size a ≤ S8x262144.size a
  inb_S8x262144_S8x16384_0_173670 : ∀ a, (![0, 173670] : Fin 2 → Nat) a + S8x16384.size a ≤ S8x262144.size a
  inb_S8x235930_S8x16384_0_147456 : ∀ a, (![0, 147456] : Fin 2 → Nat) a + S8x16384.size a ≤ S8x235930.size a
  inb_S8x262144_S8x16384_0_163840 : ∀ a, (![0, 163840] : Fin 2 → Nat) a + S8x16384.size a ≤ S8x262144.size a
  inb_S8x262144_S8x16384_0_190054 : ∀ a, (![0, 190054] : Fin 2 → Nat) a + S8x16384.size a ≤ S8x262144.size a
  inb_S8x235930_S8x16384_0_163840 : ∀ a, (![0, 163840] : Fin 2 → Nat) a + S8x16384.size a ≤ S8x235930.size a
  inb_S8x262144_S8x16384_0_180224 : ∀ a, (![0, 180224] : Fin 2 → Nat) a + S8x16384.size a ≤ S8x262144.size a
  inb_S8x262144_S8x16384_0_206438 : ∀ a, (![0, 206438] : Fin 2 → Nat) a + S8x16384.size a ≤ S8x262144.size a
  inb_S8x235930_S8x16384_0_180224 : ∀ a, (![0, 180224] : Fin 2 → Nat) a + S8x16384.size a ≤ S8x235930.size a
  inb_S8x262144_S8x16384_0_196608 : ∀ a, (![0, 196608] : Fin 2 → Nat) a + S8x16384.size a ≤ S8x262144.size a
  inb_S8x262144_S8x16384_0_222822 : ∀ a, (![0, 222822] : Fin 2 → Nat) a + S8x16384.size a ≤ S8x262144.size a
  inb_S8x235930_S8x16384_0_196608 : ∀ a, (![0, 196608] : Fin 2 → Nat) a + S8x16384.size a ≤ S8x235930.size a
  inb_S8x262144_S8x16384_0_212992 : ∀ a, (![0, 212992] : Fin 2 → Nat) a + S8x16384.size a ≤ S8x262144.size a
  inb_S8x262144_S8x16384_0_239206 : ∀ a, (![0, 239206] : Fin 2 → Nat) a + S8x16384.size a ≤ S8x262144.size a
  inb_S8x235930_S8x16384_0_212992 : ∀ a, (![0, 212992] : Fin 2 → Nat) a + S8x16384.size a ≤ S8x235930.size a
  slices_S8x16384_o0_0_S8x6554 : S8x16384.Slices ![0, 0] S8x6554
  broadcasts_S8x1_S8x6554 : S8x1.Broadcasts S8x6554
  inb_S8x262144_S8x6554_0_229376 : ∀ a, (![0, 229376] : Fin 2 → Nat) a + S8x6554.size a ≤ S8x262144.size a
  h_S8x6554 : 0 < S8x6554.numel
  inb_S8x262144_S8x6554_0_255590 : ∀ a, (![0, 255590] : Fin 2 → Nat) a + S8x6554.size a ≤ S8x262144.size a
  inb_S8x235930_S8x6554_0_229376 : ∀ a, (![0, 229376] : Fin 2 → Nat) a + S8x6554.size a ≤ S8x235930.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x262144.size a ≤ S128x262144.size a
  hwx0_0 : ∀ i : grid0.Coords, EltTy.bits .f32 = 32 ∨ (Rect.block (s := S128x262144) S8x262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S128x1.size a
  hwx0_1 : ∀ i : grid0.Coords, EltTy.bits .i32 = 32 ∨ (Rect.block (s := S128x1) S8x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x235930.size a ≤ S128x235930.size a
  hwx0_2 : ∀ i : grid0.Coords, EltTy.bits .f32 = 32 ∨ (Rect.block (s := S128x235930) S8x235930.size (cc0_transform_2 i) (hinb0_2 i)).WholeWords (EltTy.packing .f32)

variable [Facts₀]

abbrev win0_0 : Pipeline.Window sig grid0 :=
  Pipeline.Window.ofSpec (Memref.whole main_arg0) S8x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x235930.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x262144 : Shape := ⟨2, ![128, 262144]⟩
abbrev S128 : Shape := ⟨1, ![128]⟩
abbrev S235930 : Shape := ⟨1, ![235930]⟩
abbrev S1x235930 : Shape := ⟨2, ![1, 235930]⟩
abbrev S128x1 : Shape := ⟨2, ![128, 1]⟩
abbrev S128x235930 : Shape := ⟨2, ![128, 235930]⟩
abbrev S_ : Shape := ⟨0, ![]⟩
abbrev S128x235930x1 : Shape := ⟨3, ![128, 235930, 1]⟩
abbrev S1 : Shape := ⟨1, ![1]⟩
abbrev S1x1x1 : Shape := ⟨3, ![1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S128x262144, .f32⟩
  | .hbm, ⟨1, _⟩ => ⟨S128, .i32⟩
  | .hbm, ⟨2, _⟩ => ⟨S235930, .i32⟩
  | .hbm, ⟨3, _⟩ => ⟨S1x235930, .i32⟩
  | .hbm, ⟨4, _⟩ => ⟨S1x235930, .i32⟩
  | .hbm, ⟨5, _⟩ => ⟨S128x1, .i32⟩
  | .hbm, ⟨6, _⟩ => ⟨S128x235930, .i32⟩
  | .hbm, ⟨7, _⟩ => ⟨S128x235930, .i32⟩
  | .hbm, ⟨8, _⟩ => ⟨S128x235930, .i1⟩
  | .hbm, ⟨9, _⟩ => ⟨S_, .i32⟩
  | .hbm, ⟨10, _⟩ => ⟨S_, .i32⟩
  | .hbm, ⟨11, _⟩ => ⟨S128x235930, .i32⟩
  | .hbm, ⟨12, _⟩ => ⟨S128x235930, .i32⟩
  | .hbm, ⟨13, _⟩ => ⟨S128x235930, .i32⟩
  | .hbm, ⟨14, _⟩ => ⟨S128x235930, .i32⟩
  | .hbm, ⟨15, _⟩ => ⟨S128x235930, .i32⟩
  | .hbm, ⟨16, _⟩ => ⟨S128x235930, .i32⟩
  | .hbm, ⟨17, _⟩ => ⟨S_, .i32⟩
  | .hbm, ⟨18, _⟩ => ⟨S128x235930, .i32⟩
  | .hbm, ⟨19, _⟩ => ⟨S128x235930, .i1⟩
  | .hbm, ⟨20, _⟩ => ⟨S_, .i32⟩
  | .hbm, ⟨21, _⟩ => ⟨S128x235930, .i32⟩
  | .hbm, ⟨22, _⟩ => ⟨S128x235930, .i32⟩
  | .hbm, ⟨23, _⟩ => ⟨S128x235930, .i32⟩
  | .hbm, ⟨24, _⟩ => ⟨S128x235930x1, .i32⟩
  | .hbm, ⟨25, _⟩ => ⟨S1, .i32⟩
  | .hbm, ⟨26, _⟩ => ⟨S_, .i32⟩
  | .hbm, ⟨27, _⟩ => ⟨S128x235930x1, .i32⟩
  | .hbm, ⟨28, _⟩ => ⟨S128x235930x1, .i1⟩
  | .hbm, ⟨29, _⟩ => ⟨S1x1x1, .i32⟩
  | .hbm, ⟨30, _⟩ => ⟨S128x235930x1, .i32⟩
  | .hbm, ⟨31, _⟩ => ⟨S128x235930x1, .i1⟩
  | .hbm, ⟨32, _⟩ => ⟨S128x235930x1, .i1⟩
  | .hbm, ⟨33, _⟩ => ⟨S_, .i1⟩
  | .hbm, ⟨34, _⟩ => ⟨S128x235930, .i1⟩
  | .hbm, ⟨35, _⟩ => ⟨S128x235930, .f32⟩
  | .hbm, ⟨36, _⟩ => ⟨S_, .f32⟩
  | .hbm, ⟨37, _⟩ => ⟨S128x235930, .f32⟩
  | .hbm, ⟨38, _⟩ => ⟨S128x235930, .f32⟩
  | _, _ => ⟨S128x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  bcast_S235930_S1x235930_1 : S235930.BroadcastsInDim S1x235930 (![1] : Fin 1 → Fin S1x235930.rank)
  bcast_S128_S128x1_0 : S128.BroadcastsInDim S128x1 (![0] : Fin 1 → Fin S128x1.rank)
  bcast_S1x235930_S128x235930_0_1 : S1x235930.BroadcastsInDim S128x235930 (![0, 1] : Fin 2 → Fin S128x235930.rank)
  bcast_S128x1_S128x235930_0_1 : S128x1.BroadcastsInDim S128x235930 (![0, 1] : Fin 2 → Fin S128x235930.rank)
  bcast_S_S128x235930 : S_.BroadcastsInDim S128x235930 (![] : Fin 0 → Fin S128x235930.rank)
  shapeCasts_S128x235930_S128x235930x1 : S128x235930.ShapeCasts S128x235930x1
  bcast_S_S128x235930x1 : S_.BroadcastsInDim S128x235930x1 (![] : Fin 0 → Fin S128x235930x1.rank)
  bcast_S1_S1x1x1_2 : S1.BroadcastsInDim S1x1x1 (![2] : Fin 1 → Fin S1x1x1.rank)
  bcast_S1x1x1_S128x235930x1_0_1_2 : S1x1x1.BroadcastsInDim S128x235930x1 (![0, 1, 2] : Fin 3 → Fin S128x235930x1.rank)
  reducesTo_S128x235930x1_S128x235930_d2 : S128x235930x1.ReducesTo [2] S128x235930
  h_S_ : 0 < S_.numel
  gather_S128x262144_S128x235930x1_S128x235930_n_1_0_0_1_2_11_wf : GatherDims.WF S128x262144 S128x235930x1 S128x235930 [] [1] [0] [1] [0] 2 ![1, 1]

variable [Facts₀]

def gather_S128x262144_S128x235930x1_S128x235930_n_1_0_0_1_2_11 : GatherDims S128x262144 S128x235930x1 S128x235930 where
  offsetDims := []
  collapsedSliceDims := [1]
  operandBatchingDims := [0]
  startIndicesBatchingDims := [0]
  startIndexMap := [1]
  indexVectorDim := 2
  sliceSizes := ![1, 1]
  wf := gather_S128x262144_S128x235930x1_S128x235930_n_1_0_0_1_2_11_wf

class Facts : Prop extends Facts₀ where

variable [Facts]
-- ==== Proof.CropPre.lean ====
import proofs.«154833_j21345987461560_2_alg».proof.Pre_finite_inputs
import Idealize.ShloMosaic.Lib.ReduceAll
import Idealize.ShloMosaic.Lib.ValueIdx

/-!
# What the precondition says of the starts

The precondition is the conjunction of two `all`s: every sample of `audio` finite, and every start at least zero. Only the
second is used: read at a row, it says that row's start is not negative.
-/

namespace Cert.Crop.Pre

open Idealize.ShloMosaic Cert.Pre_finite_inputs

/-- A scalar has one index. -/
instance : Subsingleton Cert.Pre_finite_inputs.S_.Idx := ⟨fun _ _ => funext fun d => d.elim0⟩

/-- THE PRECONDITION READ AT A ROW: the row's start, as a signed word, is not negative. -/
theorem starts_nonneg [Cert.Pre_finite_inputs.Facts] {F : FTy → Type} [FloatOps F]
    (a0 : FVec F S128x262144 .f32) (a1 : IVec S128 32)
    (h : Cert.Pre_finite_inputs.fn (F := F) a0 a1 = fun _ => 1#1) (i : S128.Idx) : 0 ≤ (a1 i).toInt := by
  have e := congrFun h ValueIdx.ix0
  dsimp only [Cert.Pre_finite_inputs.fn] at e
  -- the conjunction of the two `all`s
  change IntOp.andi _ _ = 1#1 at e
  obtain ⟨-, e6⟩ := IntOp.andi_eq_one.1 e
  -- the second is an `all` over the rows of "start ≥ 0"
  have e5 := Host.reduce_andi_all _ _ _ _ ValueIdx.ix0 e6 i
  change IntOp.cmpi .sge (a1 i) 0#32 = 1#1 at e5
  have e5' := IntOp.cmpi_sge.1 e5
  have hz : (0#32 : BitVec 32).toInt = 0 := by decide
  rw [hz] at e5'
  exact e5'

end Cert.Crop.Pre
-- ==== Proof.LibTakeAlong.lean ====
import Idealize.ShloMosaic.PureOps
import Idealize.ShloMosaic.PureOps.Reduce
import Idealize.ShloMosaic.Lib.ValueIdx

/-!
# `take_along_axis` along the last axis of a matrix, read at an index

`jnp.take_along_axis(x, idx, axis=1)` for `x : [R, N]` and `idx : [R, C]` lowers to a `stablehlo.gather` whose
row axis is a batching axis of both the operand and the start indices, whose column axis is collapsed and is
the one axis the start index names, with slices of one element and the start indices recast to `[R, C, 1]`.
Result element `(r, j)` is then `x` at row `r` and at the column `idx[r, j, 0]`, read as a signed integer and
clamped into `[0, N - 1]`.

The second lemma is the companion the same lowering needs for its in-range mask: a reduction by `and` of an
array of ones, from the initial value one, is one at every result index.
-/

namespace Idealize.ShloMosaic.TakeAlong

open Idealize.ShloMosaic Idealize.ShloMosaic.ValueIdx

variable {α : Type}

/-- The gather's dimension numbers for an operand `[R, N]`, start indices `[R, C, 1]` and result `[R, C]`: no offset
    axis, the column axis collapsed and named by the start index, the row axis batching on both sides. -/
abbrev takeAlongDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- THE GATHER READ AT `(r, j)`: the operand at row `r` and at the column the start index `idx[r, j, 0]` names, read
    signed and clamped into `[0, N - 1]`. -/
theorem gather_take_along_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (y : (⟨2, ![R, C]⟩ : Shape).Idx) :
    Host.gather (takeAlongDims R N C wf) x idx y
      = x (ix2 (y 0) ⟨min (idx (takeIdx y)).toInt.toNat (N - 1), by omega⟩) := by
  unfold Host.gather
  congr 1
  funext a
  refine Fin.ext ?_
  have h2 : a = (0 : Fin 2) ∨ a = (1 : Fin 2) := by
    rcases a with ⟨v, hv⟩
    have hv' : v < 2 := hv
    rcases (by omega : v = 0 ∨ v = 1) with rfl | rfl
    · exact Or.inl rfl
    · exact Or.inr rfl
  rcases h2 with rfl | rfl
  · -- the row axis: batching, so no start and no offset; the batch coordinate is the result's row
    show (takeAlongDims R N C wf).start y idx (0 : Fin 2) + (takeAlongDims R N C wf).batchCoord y (0 : Fin 2)
      + (takeAlongDims R N C wf).offCoord y (0 : Fin 2) = (y 0).val
    have hb : (0 : Fin 2) ∈ (takeAlongDims R N C wf).operandBatchingDims := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  · -- the column axis: collapsed and named by the start index
    show (takeAlongDims R N C wf).start y idx (1 : Fin 2) + (takeAlongDims R N C wf).batchCoord y (1 : Fin 2)
      + (takeAlongDims R N C wf).offCoord y (1 : Fin 2) = min (idx (takeIdx y)).toInt.toNat (N - 1)
    have hc : (1 : Fin 2) ∈ (takeAlongDims R N C wf).collapsedSliceDims := List.mem_singleton.mpr rfl
    have hnb : (1 : Fin 2) ∉ (takeAlongDims R N C wf).operandBatchingDims :=
      fun h => Nat.one_ne_zero (congrArg Fin.val (List.mem_singleton.mp h))
    have hm : (1 : Fin 2) ∈ (takeAlongDims R N C wf).startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (takeAlongDims R N C wf).siIdx y ⟨List.idxOf (1 : Fin 2) (takeAlongDims R N C wf).startIndexMap,
        List.idxOf_lt_length_iff.2 hm⟩ = takeIdx y := by
      funext b; refine Fin.ext ?_
      match b with
      | ⟨0, _⟩ => rfl
      | ⟨1, _⟩ => rfl
      | ⟨2, _⟩ => rfl
    rw [hsi]
    rfl

/-- A left fold by `and` over words that are all one, from one, is one. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1) (1#1) = 1#1 from by decide]
    exact foldl_andi_of_all_one f hf l

/-- A `stablehlo.reduce` by `and` of an array of ones, from the initial value one, is one at every result index. -/
theorem reduce_andi_of_all_one {s t u : Shape} {axes : List (Fin s.rank)} (x : s.Idx → BitVec 1)
    (init : u.Idx → BitVec 1) (h : s.ReducesTo axes t) (hu : 0 < u.numel) (j : t.Idx)
    (hx : ∀ i, x i = 1#1) (hi : init (Shape.Idx.first hu) = 1#1) :
    Host.reduce IntOp.andi x init h hu j = 1#1 := by
  rw [Host.reduce_eq_foldl, hi]
  exact foldl_andi_of_all_one x hx _

end Idealize.ShloMosaic.TakeAlong
-- ==== Proof.CropSpec.lean ====
import Idealize.ShloMosaic.PureOps
import Idealize.ShloMosaic.Lib.ValueIdx

/-!
# Cropping a chunk out of every row: the specification and its integer arithmetic

Row `r` of the result is row `r` of `audio` with the `26214` samples from position `starts r` on removed: column `j`
of the result is column `j` of the row while `j` is before the start (as signed 32-bit words), and column
`j + 26214` from the start on. The result has `262144 - 26214 = 235930` columns.

The two programs decide "from the start on" differently. One compares the column `j` with the start. The other
walks the columns in chunks of `16384`, and inside the chunk at offset `off` compares the position `l` within the chunk
with `start - off`, a subtraction of 32-bit words that wraps around. For a start that is not negative nothing
wraps, `l ≥ start - off` is `off + l ≥ start`, and the two agree; that is the arithmetic of this file.
-/

noncomputable section

namespace Cert.Crop

open Idealize.ShloMosaic Idealize.ShloMosaic.ValueIdx

abbrev SAudio : Shape := ⟨2, ![128, 262144]⟩
abbrev SStarts : Shape := ⟨1, ![128]⟩
abbrev SOut : Shape := ⟨2, ![128, 235930]⟩
abbrev SAudioBlk : Shape := ⟨2, ![8, 262144]⟩
abbrev SStartsBlk : Shape := ⟨2, ![8, 1]⟩
abbrev SOutBlk : Shape := ⟨2, ![8, 235930]⟩

/-- THE SPECIFICATION: row by row, the columns before the start as they are, the columns from the start on taken
    `26214` further right. -/
def crop {α : Type} (audio : SAudio.Idx → α) (starts : SStarts.Idx → BitVec 32) : SOut.Idx → α := fun i =>
  Scalar.select (IntOp.cmpi .sge (BitVec.ofNat 32 (i 1).val) (starts (ix1 (i 0))))
    (audio (ix2 (i 0) ⟨(i 1).val + 26214, by have := idx2_lt1 i; omega⟩))
    (audio (ix2 (i 0) ⟨(i 1).val, by have := idx2_lt1 i; omega⟩))

/-- The same on a block of eight rows, with the starts as a column of eight words. -/
def cropRows {α : Type} (x0 : SAudioBlk.Idx → α) (x1 : SStartsBlk.Idx → BitVec 32) : SOutBlk.Idx → α := fun y =>
  Scalar.select (IntOp.cmpi .sge (BitVec.ofNat 32 (y 1).val) (x1 (ix2 (y 0) 0)))
    (x0 (ix2 (y 0) ⟨(y 1).val + 26214, by have := idx2_lt1 y; omega⟩))
    (x0 (ix2 (y 0) ⟨(y 1).val, by have := idx2_lt1 y; omega⟩))

/-- The block of eight rows as the chunked program computes it: the position inside the chunk against the start
    less the chunk's offset. -/
def cropRowsChunked {α : Type} (x0 : SAudioBlk.Idx → α) (x1 : SStartsBlk.Idx → BitVec 32) : SOutBlk.Idx → α := fun y =>
  Scalar.select (IntOp.cmpi .sge (BitVec.ofNat 32 ((y 1).val % 16384))
      (IntOp.subi (x1 (ix2 (y 0) 0)) (BitVec.ofNat 32 ((y 1).val / 16384 * 16384))))
    (x0 (ix2 (y 0) ⟨(y 1).val + 26214, by have := idx2_lt1 y; omega⟩))
    (x0 (ix2 (y 0) ⟨(y 1).val, by have := idx2_lt1 y; omega⟩))

/-! ## Signed values of small words -/

/-- A natural number below `2^31`, as a 32-bit word, has itself as signed value. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split <;> omega

/-- Subtracting a natural number below `2^31` from a word that is not negative does not wrap. -/
theorem toInt_sub_ofNat (s : BitVec 32) (hs : 0 ≤ s.toInt) (off : Nat) (hoff : off < 2147483648) :
    (s - BitVec.ofNat 32 off).toInt = s.toInt - (off : Int) := by
  have hs' := hs
  rw [BitVec.toInt_eq_toNat_cond] at hs' ⊢
  rw [BitVec.toInt_eq_toNat_cond, BitVec.toNat_sub, BitVec.toNat_ofNat]
  have e : off % 2 ^ 32 = off := Nat.mod_eq_of_lt (by omega)
  rw [e]
  have hlt := s.isLt
  have p : (2 : Nat) ^ 32 = 4294967296 := by norm_num
  rw [p] at hs' hlt ⊢
  split at hs' <;> split <;> omega

/-- WHERE NOTHING WRAPS THE TWO TESTS AGREE: for a start that is not negative, the position `l` inside the chunk
    at offset `off` is at least `start - off` exactly when the column `off + l` is at least the start. -/
theorem sge_sub_eq (s : BitVec 32) (hs : 0 ≤ s.toInt) (off l : Nat) (h : off + l < 2147483648) :
    IntOp.cmpi .sge (BitVec.ofNat 32 l) (IntOp.subi s (BitVec.ofNat 32 off))
      = IntOp.cmpi .sge (BitVec.ofNat 32 (off + l)) s := by
  show BitVec.ofBool ((s - BitVec.ofNat 32 off).sle (BitVec.ofNat 32 l))
    = BitVec.ofBool (s.sle (BitVec.ofNat 32 (off + l)))
  congr 1
  unfold BitVec.sle
  rw [toInt_sub_ofNat s hs off (by omega), toInt_ofNat_small l (by omega), toInt_ofNat_small (off + l) h]
  rw [decide_eq_decide]
  push_cast
  omega

/-- So on starts that are not negative the chunked block is the block of the specification. -/
theorem cropRowsChunked_eq {α : Type} (x0 : SAudioBlk.Idx → α) (x1 : SStartsBlk.Idx → BitVec 32)
    (h1 : ∀ r, 0 ≤ (x1 (ix2 r 0)).toInt) : cropRowsChunked x0 x1 = cropRows x0 x1 := by
  funext y
  unfold cropRowsChunked cropRows
  have hy := idx2_lt1 y
  rw [sge_sub_eq _ (h1 (y 0)) _ _ (by have := Nat.div_mul_le_self (y 1).val 16384; have := Nat.mod_lt (y 1).val (by decide : 0 < 16384); omega),
    Nat.div_add_mod']

/-! ## A block of eight rows of the specification -/

/-- Eight consecutive rows of the specification are the block of the specification on those rows of `audio` and of
    the starts: block `b` holds rows `8 b` to `8 b + 7`. -/
theorem cropRows_block {α : Type} (audio : SAudio.Idx → α) (starts : SStarts.Idx → BitVec 32) (b : Fin 16)
    (x0 : SAudioBlk.Idx → α) (x1 : SStartsBlk.Idx → BitVec 32)
    (h0 : ∀ (r : Fin 8) (k : Fin 262144), x0 (ix2 r k) = audio (ix2 ⟨b.val * 8 + r.val, by omega⟩ k))
    (h1 : ∀ r : Fin 8, x1 (ix2 r 0) = starts (ix1 ⟨b.val * 8 + r.val, by omega⟩))
    (j : SOutBlk.Idx) :
    cropRows x0 x1 j = crop audio starts
      (ix2 ⟨b.val * 8 + (j 0).val, by have := idx2_lt0 j; omega⟩ ⟨(j 1).val, idx2_lt1 j⟩) := by
  unfold cropRows crop
  rw [h1 (j 0), h0 (j 0) ⟨(j 1).val + 26214, by have := idx2_lt1 j; omega⟩,
    h0 (j 0) ⟨(j 1).val, by have := idx2_lt1 j; omega⟩]

/-! ## The gathered column of the specification is in range -/

/-- A column below the row length, as a word: not negative, at most the last column, and its signed value is itself. -/
theorem col_facts (n : Nat) (h : n < 262144) :
    IntOp.cmpi .slt (BitVec.ofNat 32 n) 0#32 = 0#1 ∧ IntOp.cmpi .sge (BitVec.ofNat 32 n) 0#32 = 1#1
      ∧ IntOp.cmpi .sle (BitVec.ofNat 32 n) 262143#32 = 1#1 ∧ (BitVec.ofNat 32 n).toInt.toNat = n := by
  have e := toInt_ofNat_small n (by omega)
  have e0 : (0#32 : BitVec 32).toInt = 0 := by decide
  have e1 : (262143#32 : BitVec 32).toInt = 262143 := by decide
  refine ⟨?_, ?_, ?_, ?_⟩
  · show BitVec.ofBool ((BitVec.ofNat 32 n).slt 0#32) = 0#1
    unfold BitVec.slt; rw [e, e0, decide_eq_false (by omega)]; rfl
  · show BitVec.ofBool ((0#32 : BitVec 32).sle (BitVec.ofNat 32 n)) = 1#1
    unfold BitVec.sle; rw [e, e0, decide_eq_true (by omega)]; rfl
  · show BitVec.ofBool ((BitVec.ofNat 32 n).sle 262143#32) = 1#1
    unfold BitVec.sle; rw [e, e1, decide_eq_true (by omega)]; rfl
  · rw [e]; rfl

/-- The column of `audio` that column `j` of the result is taken from, in a row whose "from the start on" test is the
    word `g`: `j + 26214` when the test holds, `j` when it does not. -/
def shifted (j : Nat) (g : BitVec 1) : Nat := j + if g = 1 then 26214 else 0

theorem shifted_lt (j : Nat) (g : BitVec 1) (h : j < 235930) : shifted j g < 262144 := by
  unfold shifted; split <;> omega

/-- That column as the word the host program computes: the column plus `26214` or plus `0`. -/
theorem col_word (j : Nat) (g : BitVec 1) :
    IntOp.addi (BitVec.ofNat 32 j) (Scalar.select g 26214#32 0#32) = BitVec.ofNat 32 (shifted j g) := by
  unfold Scalar.select IntOp.addi shifted
  by_cases hg : g = 1
  · rw [if_pos hg, if_pos hg, BitVec.ofNat_add]
  · rw [if_neg hg, if_neg hg, Nat.add_zero, BitVec.add_zero]

/-- The specification reads `audio` at that column. -/
theorem crop_apply {α : Type} (audio : SAudio.Idx → α) (starts : SStarts.Idx → BitVec 32) (i : SOut.Idx) :
    crop audio starts i = audio (ix2 (i 0)
      ⟨shifted (i 1).val (IntOp.cmpi .sge (BitVec.ofNat 32 (i 1).val) (starts (ix1 (i 0)))), shifted_lt _ _ (idx2_lt1 i)⟩) := by
  unfold crop Scalar.select
  by_cases hg : IntOp.cmpi .sge (BitVec.ofNat 32 (i 1).val) (starts (ix1 (i 0))) = 1
  · rw [if_pos hg]
    refine congrArg audio (congrArg (ix2 (i 0)) (Fin.ext ?_))
    show (i 1).val + 26214 = shifted (i 1).val _
    unfold shifted; rw [if_pos hg]
  · rw [if_neg hg]
    refine congrArg audio (congrArg (ix2 (i 0)) (Fin.ext ?_))
    show (i 1).val = shifted (i 1).val _
    unfold shifted; rw [if_neg hg]; rfl

end Cert.Crop

end
-- ==== Proof.CropRef.lean ====
import proofs.«154833_j21345987461560_2_alg».proof.Proof.RefRead
import proofs.«154833_j21345987461560_2_alg».proof.Proof.LibTakeAlong
import proofs.«154833_j21345987461560_2_alg».proof.Proof.CropSpec

/-!
# The host program computes the specification

The host program builds, for every row `r` and result column `j`, the column word `j + (26214 if j ≥ start r else 0)`,
and takes `audio` along axis 1 at those words. `take_along_axis` first adds the row length to a negative word, then
gathers with the word clamped into the row, and last replaces by NaN whatever was gathered at a word outside the row.
Here `j < 235930`, so the word is `j` or `j + 26214`, a column of the row: it is not negative, nothing is clamped and
nothing is replaced. What is left is `audio` at row `r` and that column, which is the specification.
-/

noncomputable section

namespace Cert.Crop.Ref

open Cert.ReferenceIdeal Cert.ReferenceIdeal.Gen Cert.ReferenceIdeal.ReadP
open Idealize.ShloMosaic Idealize.ShloMosaic.ValueIdx Idealize.ShloMosaic.TakeAlong Cert.Crop

variable {F : FTy → Type} [FloatOps F]
variable (x0 : (⟨S128x262144, .f32⟩ : BufTy).Contents (Elt F)) (x1 : (⟨S128, .i32⟩ : BufTy).Contents (Elt F))

/-- The test "column `j` is at or after row `r`'s start" at a result index. -/
abbrev test (i : S128x235930.Idx) : BitVec 1 := IntOp.cmpi .sge (BitVec.ofNat 32 (i 1).val) (x1 (ix1 (i 0)))

/-- The column of `audio` a result index is taken from. -/
abbrev src (i : S128x235930.Idx) : Nat := shifted (i 1).val (test x1 i)

theorem src_lt (i : S128x235930.Idx) : src x1 i < 262144 := shifted_lt _ _ (idx2_lt1 i)

/-- The row of starts is read at the result's row. -/
theorem starts_idx (i : S128x235930.Idx) : idx_main_v3 (idx_main_v5 i) = ix1 (i 0) :=
  funext fun a => Fin.ext (by match a with | ⟨0, _⟩ => rfl)

/-- The column word the host program computes at a result index. -/
theorem v10_eq (i : S128x235930.Idx) : val_main_v10 (F := F) x1 i = BitVec.ofNat 32 (src x1 i) := by
  simp only [val_main_v10_apply, val_main_v9_apply, val_main_v1_apply, val_main_v0_apply, val_main_v8_apply,
    val_main_v7_apply, val_main_v6_apply, val_main_v4_apply, val_main_v2_apply, val_main_v5_apply, val_main_v3_apply,
    val_main_call0_v0_apply, val_main_c_apply, val_main_call0_v1_apply, val_main_c_0_apply, starts_idx]
  exact col_word _ _

/-- It is not negative, so `take_along_axis` leaves it as it is. -/
theorem v4_eq (i : S128x235930.Idx) : val_main_call1_v4 (F := F) x1 i = BitVec.ofNat 32 (src x1 i) := by
  simp only [val_main_call1_v4_apply, val_main_call1_v1_apply, val_main_call1_v0_apply, val_main_call1_c_apply, v10_eq]
  rw [(col_facts _ (src_lt x1 i)).1]
  exact select_zero _ _

/-- The same word in the recast array of start indices. -/
theorem v5_eq (i' : S128x235930x1.Idx) :
    val_main_call1_v5 (F := F) x1 i' = BitVec.ofNat 32 (src x1 (idx_main_call1_v5 i')) := by
  rw [val_main_call1_v5_apply, v4_eq]

/-- It is a column of the row: the in-range mask is one everywhere, -/
theorem v11_eq (i' : S128x235930x1.Idx) : val_main_call1_v11 (F := F) x1 i' = 1#1 := by
  have h := col_facts _ (src_lt x1 (idx_main_call1_v5 i'))
  simp only [val_main_call1_v11_apply, val_main_call1_v7_apply, val_main_call1_v10_apply, val_main_call1_v6_apply,
    val_main_call1_c_2_apply, val_main_call1_v9_apply, val_main_call1_v8_apply, val_main_call1_c_1_apply, v5_eq]
  rw [h.2.1, h.2.2.1]
  rfl

/-- and so is its reduction over the unit axis. -/
theorem v12_eq (i : S128x235930.Idx) : val_main_call1_v12 (F := F) x1 i = 1#1 := by
  unfold val_main_call1_v12
  exact reduce_andi_of_all_one _ _ _ _ i (v11_eq x1) rfl

/-- The index `(r, j, 0)` of the recast start indices is the index `(r, j)` before the recast. -/
theorem take_idx (i : S128x235930.Idx) : idx_main_call1_v5 (takeIdx i) = i := by
  have h0 := idx2_lt0 i
  have h1 := idx2_lt1 i
  funext a
  match a with
  | ⟨0, _⟩ =>
    refine Fin.ext ?_
    show (((i 0).val * 235930 + (i 1).val) * 1 + 0) / 235930 = (i 0).val
    omega
  | ⟨1, _⟩ =>
    refine Fin.ext ?_
    show (((i 0).val * 235930 + (i 1).val) * 1 + 0) % 235930 = (i 1).val
    omega

/-- The gather reads `audio` at the result's row and the column word, which no clamp changes. -/
theorem v13_eq (i : S128x235930.Idx) :
    val_main_call1_v13 (F := F) x0 x1 i = x0 (ix2 (i 0) ⟨src x1 i, src_lt x1 i⟩) := by
  unfold val_main_call1_v13
  refine (gather_take_along_apply (by decide) Facts₀.gather_S128x262144_S128x235930x1_S128x235930_n_1_0_0_1_2_11_wf x0
    (val_main_call1_v5 (F := F) x1) i).trans ?_
  refine congrArg x0 (congrArg (ix2 (i 0)) (Fin.ext ?_))
  show min (val_main_call1_v5 (F := F) x1 (takeIdx i)).toInt.toNat (262144 - 1) = src x1 i
  rw [v5_eq, take_idx, (col_facts _ (src_lt x1 i)).2.2.2]
  have := src_lt x1 i
  omega

/-- THE HOST PROGRAM'S RESULT IS THE SPECIFICATION, index by index. -/
theorem ref_eq_crop : val_main_v11 (F := F) x0 x1 = crop x0 x1 := by
  funext i
  rw [val_main_v11_apply, v12_eq, v13_eq, crop_apply]
  exact select_one _ _

end Cert.Crop.Ref

end
-- ==== Proof.CropChunk.lean ====
import proofs.«154833_j21345987461560_2_alg».proof.Proof.CropSpec
import Idealize.ShloMosaic.Lib.Pipeline.Value

/-!
# One chunk of columns of the block, as the kernel computes it

The kernel writes its block of eight rows chunk by chunk: all eight rows by the columns `[OFF, OFF + W)`, with `OFF` a
multiple of `16384` and `W ≤ 16384`. Inside a chunk, at row `r` and position `l`, it selects between `audio` at column
`OFF + l + 26214` and at column `OFF + l` by the test `l ≥ start r - OFF` on 32-bit words. That is the chunked block of
the specification (`cropRowsChunked`) at row `r` and column `OFF + l`: `l` is the column's remainder by `16384` and `OFF`
the rest.
-/

noncomputable section

namespace Cert.Crop

open Idealize.ShloMosaic Idealize.ShloMosaic.ValueIdx

/-- An index of the rectangle of all eight rows and the columns from `o` on, in an array of eight rows: same row,
    column `o` further right. -/
theorem idx_chunk {N W : Nat} (o : Nat) (inb : ∀ a, (![0, o] : Fin 2 → Nat) a + (![8, W] : Fin 2 → Nat) a ≤ (⟨2, ![8, N]⟩ : Shape).size a)
    (x : (⟨2, ![8, W]⟩ : Shape).Idx) (k : Nat) (hk : k = o + (x 1).val) (hkN : k < N) :
    (Rect.unit (s := ⟨2, ![8, N]⟩) ![0, o] ![8, W] inb).idx x = ix2 ⟨(x 0).val, idx2_lt0 x⟩ ⟨k, hkN⟩ := by
  funext a
  apply Fin.ext
  match a with
  | ⟨0, _⟩ => show 0 + 1 * (x 0).val = (x 0).val; omega
  | ⟨1, _⟩ => show o + 1 * (x 1).val = k; omega

/-- The column counter of a chunk: at an index, its column as a word. -/
theorem iota_col {W : Nat} (h : (⟨2, ![8, W]⟩ : Shape).Iotas .tc 32 [1]) (x : (⟨2, ![8, W]⟩ : Shape).Idx) :
    iota .tc ⟨2, ![8, W]⟩ 32 [1] h x = BitVec.ofNat 32 (x 1).val := by
  show BitVec.ofNat 32 (0 * _ + (x 1).val) = _
  rw [Nat.zero_mul, Nat.zero_add]

/-- The first columns of the column counter are the column counter of the narrower chunk. -/
theorem iota_slice_col {W W' : Nat} (h : (⟨2, ![8, W]⟩ : Shape).Iotas .tc 32 [1])
    (hs : (⟨2, ![8, W]⟩ : Shape).Slices ![0, 0] ⟨2, ![8, W']⟩) (hW : W' ≤ W) (x : (⟨2, ![8, W']⟩ : Shape).Idx) :
    extractStridedSlice ⟨2, ![8, W']⟩ ![0, 0] (iota .tc ⟨2, ![8, W]⟩ 32 [1] h) hs x = BitVec.ofNat 32 (x 1).val := by
  have h1 := idx2_lt1 x
  rw [extractStridedSlice_apply ![0, 0] _ hs x (ix2 ⟨(x 0).val, idx2_lt0 x⟩ ⟨(x 1).val, by omega⟩)
    (fun a => by match a with
      | ⟨0, _⟩ => show (x 0).val = 0 + (x 0).val; omega
      | ⟨1, _⟩ => show (x 1).val = 0 + (x 1).val; omega)]
  exact iota_col h _

/-- ONE CHUNK of the kernel's block is the chunked block of the specification on the chunk's rectangle. -/
theorem chunk_apply {Val : EltTy → Type} {e : EltTy} {W : Nat} (OFF OA : Nat) (hOA : OA = OFF + 26214)
    (hOFF : OFF % 16384 = 0) (hW : W ≤ 16384) (hin : OFF + W ≤ 235930)
    (x0 : SAudioBlk.Idx → Val e) (x1 : SStartsBlk.Idx → BitVec 32)
    (io : IVec ⟨2, ![8, W]⟩ 32) (hio : ∀ x, io x = BitVec.ofNat 32 (x 1).val)
    (hb : SStartsBlk.Broadcasts ⟨2, ![8, W]⟩)
    (inbA : ∀ a, (![0, OA] : Fin 2 → Nat) a + (![8, W] : Fin 2 → Nat) a ≤ SAudioBlk.size a)
    (inbB : ∀ a, (![0, OFF] : Fin 2 → Nat) a + (![8, W] : Fin 2 → Nat) a ≤ SAudioBlk.size a)
    (inbO : ∀ a, (![0, OFF] : Fin 2 → Nat) a + (![8, W] : Fin 2 → Nat) a ≤ SOutBlk.size a)
    (x : (⟨2, ![8, W]⟩ : Shape).Idx) :
    select (cmpi .sge io (broadcastTo ⟨2, ![8, W]⟩ (subi x1 (broadcast SStartsBlk (BitVec.ofNat 32 OFF))) hb))
        (View.ld x0 (Rect.unit (s := SAudioBlk) ![0, OA] ![8, W] inbA))
        (View.ld x0 (Rect.unit (s := SAudioBlk) ![0, OFF] ![8, W] inbB)) x
      = cropRowsChunked x0 x1 ((Rect.unit (s := SOutBlk) ![0, OFF] ![8, W] inbO).emb x) := by
  have hx0 := idx2_lt0 x
  have hx1 := idx2_lt1 x
  have eO : (Rect.unit (s := SOutBlk) ![0, OFF] ![8, W] inbO).emb x
      = ix2 ⟨(x 0).val, hx0⟩ ⟨OFF + (x 1).val, by omega⟩ := idx_chunk OFF inbO x _ rfl (by omega)
  rw [eO]
  show Scalar.select (IntOp.cmpi .sge (io x) (broadcastTo ⟨2, ![8, W]⟩ (subi x1 (broadcast SStartsBlk (BitVec.ofNat 32 OFF))) hb x))
      (x0 ((Rect.unit (s := SAudioBlk) ![0, OA] ![8, W] inbA).idx x)) (x0 ((Rect.unit (s := SAudioBlk) ![0, OFF] ![8, W] inbB).idx x)) = _
  rw [hio, broadcastTo_apply _ hb x (ix2 ⟨(x 0).val, hx0⟩ 0) (fun a => by
      match a with
      | ⟨0, _⟩ => show (x 0).val = if (8 : Nat) = 1 then 0 else (x 0).val; rw [if_neg (by decide)]
      | ⟨1, _⟩ => show 0 = if (1 : Nat) = 1 then 0 else (x 1).val; rw [if_pos rfl]),
    idx_chunk OA inbA x (OFF + (x 1).val + 26214) (by omega) (by omega),
    idx_chunk OFF inbB x (OFF + (x 1).val) rfl (by omega)]
  unfold cropRowsChunked
  have e1 : (OFF + (x 1).val) % 16384 = (x 1).val := by omega
  have e2 : (OFF + (x 1).val) / 16384 * 16384 = OFF := by omega
  show _ = Scalar.select (IntOp.cmpi .sge (BitVec.ofNat 32 ((OFF + (x 1).val) % 16384))
      (IntOp.subi (x1 (ix2 ⟨(x 0).val, hx0⟩ 0)) (BitVec.ofNat 32 ((OFF + (x 1).val) / 16384 * 16384)))) _ _
  rw [e1, e2]
  rfl

end Cert.Crop

end
-- ==== Proof.CropBody.lean ====
import proofs.«154833_j21345987461560_2_alg».proof.Proof.KernelIdealFrame
import proofs.«154833_j21345987461560_2_alg».proof.Proof.CropChunk

/-!
# What the kernel's body leaves in its output block

At a grid point the body holds a block `x0` of eight rows of `audio` and the column `x1` of those rows' starts, and
stores fifteen chunks into its output block: all eight rows by `16384` columns, fourteen times, then by the remaining
`6554` columns. Each chunk is the chunked block of the specification on its rectangle (`chunk_apply`), the chunks cover
the block, and so the block the body leaves is `cropRowsChunked x0 x1`, whatever the staging buffer held before.
-/

set_option maxRecDepth 16384

noncomputable section

namespace Cert.Crop.Body

open Cert.KernelIdeal Cert.KernelIdeal.Gen Cert.KernelIdeal.GenP
open Idealize.ShloMosaic Idealize.ShloMosaic.TcCoe Idealize.ShloMosaic.Tactic Idealize.SL.Sem Cert.Crop

variable {F : FTy → Type} [FloatOps F]

theorem hz : (![0, 0] : Fin 2 → Nat) = fun _ => 0 := funext fun a => by fin_cases a <;> rfl

/-- THE BLOCK THE BODY LEAVES, index by index: the chunked block of the specification on the point's input blocks. -/
theorem out_apply (c : Dev nD) (i : grid0.Coords) (arg1 : Memref sig .tc .vmem S8x262144 .f32) (harg1 : arg1.IsWhole)
    (arg2 : Memref sig .tc .vmem S8x1 .i32) (harg2 : arg2.IsWhole) (arg3 : Memref sig .tc .vmem S8x235930 .f32) (harg3 : arg3.IsWhole)
    (x0 : Vec F S8x262144 .f32) (x1 : Vec F S8x1 .i32) (y : S8x235930.Idx) :
    out0_A_2 c i arg1 harg1 arg2 harg2 arg3 harg3 x0 x1 y = cropRowsChunked x0 x1 y := by
  unfold out0_A_2
  refine View.read_writes_apply_of_pieces _ _ (cropRowsChunked x0 x1) _ ?_ y
    (cover0_A_2 c i arg1 harg1 arg2 harg2 arg3 harg3 x0 x1 y)
  unfold kernelRun0_A
  dsimp only
  sl_unfold_words
  intro p hp x
  simp only [List.mem_cons, List.mem_nil_iff, or_false] at hp
  rcases hp with rfl | rfl | rfl | rfl | rfl | rfl | rfl | rfl | rfl | rfl | rfl | rfl | rfl | rfl | rfl
  all_goals
    dsimp only
    simp only [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19,
      View.readAt_eq_ld, harg1.read_unread, harg2.read_unread, shapeCast_self, View.ld_unit_zero (S := S8x1) hz]
    refine chunk_apply _ _ ?_ ?_ ?_ ?_ x0 x1 _ ?_ _ _ _ _ x
    · rfl
    · decide
    · decide
    · decide
    · first
      | exact iota_col _
      | exact iota_slice_col _ _ (by decide)

end Cert.Crop.Body

end
-- ==== Proof.CropBlocks.lean ====
import proofs.«154833_j21345987461560_2_alg».proof.Proof.KernelIdealValue
import proofs.«154833_j21345987461560_2_alg».proof.Proof.CropBody

/-!
# From the blocks the grid points write back to the whole result array

The grid has sixteen points; point `t` holds rows `8 t` to `8 t + 7` of `audio` (all columns), the same rows of the
column of starts — the starts recast by the host from `[128]` to `[128, 1]` before the region —, and writes back rows `8 t`
to `8 t + 7` of the result (all `235930` columns). What it writes back is the block of the specification on its rows
(where the starts are not negative), the sixteen blocks cover the result array, and so the array ends holding the
specification of the two argument arrays.
-/

set_option maxRecDepth 16384

noncomputable section

namespace Cert.Crop.Blocks

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Crop
open Idealize.ShloMosaic.Pipeline (Dat)

variable {F : FTy → Type} [FloatOps F]
variable (m : (ℓ : Loc nD τ sig) → Buf (Elt F) ℓ) (ρ : Dev nD → PrngReg)

/-- The printed index maps, decided over the sixteen points: every window's block index is the point on the row
    axis and `0` on the column axis. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 16 := by
  have h : t.val < grid0.N := t.isLt
  rw [N_0] at h
  exact h

/-- The column of starts as the region finds it: the host's recast of the argument. -/
theorem V_starts (c : Dev nD) :
    (V m c main_v0 : S128x1.Idx → BitVec 32)
      = shapeCast S128x1 (m ((c : Thread nD τ).loc main_arg1) : S128.Idx → BitVec 32) shapeCasts_S128_S128x1 := by
  dsimp only [Gen.V, Gen.hostOps0]; after_results; rfl

/-- Row `r` of that column is the argument's entry `r`. -/
theorem starts_at (c : Dev nD) (r : Fin 128) :
    (V m c main_v0 : S128x1.Idx → BitVec 32) (ix2 r 0) = (m ((c : Thread nD τ).loc main_arg1) : S128.Idx → BitVec 32) (ix1 r) := by
  rw [V_starts]
  exact shapeCast_apply _ shapeCasts_S128_S128x1 (ix2 r 0) (ix1 r) (by
    rw [Shape.rowMajor_val_one, Shape.rowMajor_val_two]
    show r.val = r.val * 1 + 0
    omega)

/-- WHAT POINT `t` WRITES BACK is block `t` of the specification of the arrays the region finds, where no start is
    negative. -/
theorem flushed_eq (c : Dev nD)
    (hs : ∀ r : Fin 128, 0 ≤ ((m ((c : Thread nD τ).loc main_arg1) : S128.Idx → BitVec 32) (ix1 r)).toInt) (t : Fin cfg0.N) :
    (dats m 0 c).flushed 2 t = ((cfg0.win 2).blk t).view.read (Elt F)
      (crop (V m c main_arg0) (m ((c : Thread nD τ).loc main_arg1) : S128.Idx → BitVec 32)) := by
  rw [flushed2_A]
  obtain ⟨e00, e01, e10, e11, e20, e21⟩ := idx_facts t
  have ht := point_lt t
  -- the point's input blocks are rows `8 t` to `8 t + 7` of the two arrays
  have h0 : ∀ (r : Fin 8) (k : Fin 262144),
      iblk m c 0 t (ix2 r k) = V m c main_arg0 (ix2 ⟨t.val * 8 + r.val, by omega⟩ k) := fun r k => by
    show V m c main_arg0 (((cfg0.win 0).blk t).view.emb (ix2 r k)) = _
    refine congrArg (V m c main_arg0) (funext fun a => Fin.ext ?_)
    match a with
    | ⟨0, _⟩ => show win0_0.index t (0 : Fin 2) * 8 + 1 * r.val = t.val * 8 + r.val; omega
    | ⟨1, _⟩ => show win0_0.index t (1 : Fin 2) * 262144 + 1 * k.val = k.val; omega
  have h1 : ∀ r : Fin 8, iblk m c 1 t (ix2 r 0)
      = (m ((c : Thread nD τ).loc main_arg1) : S128.Idx → BitVec 32) (ix1 ⟨t.val * 8 + r.val, by omega⟩) := fun r => by
    refine Eq.trans ?_ (starts_at m c ⟨t.val * 8 + r.val, by omega⟩)
    show V m c main_v0 (((cfg0.win 1).blk t).view.emb (ix2 r 0)) = _
    refine congrArg (V m c main_v0) (funext fun a => Fin.ext ?_)
    match a with
    | ⟨0, _⟩ => show win0_1.index t (0 : Fin 2) * 8 + 1 * r.val = t.val * 8 + r.val; omega
    | ⟨1, _⟩ => show win0_1.index t (1 : Fin 2) * 1 + 1 * 0 = 0; omega
  funext j
  show out0_A_2 c (grid0.coords t) (ms0_0 t) (hs0_0 t) (ms0_1 t) (hs0_1 t) (ms0_2 t) (hs0_2 t) (iblk m c 0 t) (iblk m c 1 t) j
    = crop (V m c main_arg0) (m ((c : Thread nD τ).loc main_arg1) : S128.Idx → BitVec 32) (((cfg0.win 2).blk t).view.emb j)
  refine (Body.out_apply c _ _ _ _ _ _ _ (iblk m c 0 t) (iblk m c 1 t) j).trans ?_
  refine (congrFun (cropRowsChunked_eq (iblk m c 0 t) (iblk m c 1 t) (fun r => by rw [h1 r]; exact hs _)) j).trans ?_
  refine (cropRows_block (V m c main_arg0) (m ((c : Thread nD τ).loc main_arg1) : S128.Idx → BitVec 32) ⟨t.val, ht⟩
    (iblk m c 0 t) (iblk m c 1 t) h0 h1 j).trans ?_
  refine congrArg (crop (V m c main_arg0) (m ((c : Thread nD τ).loc main_arg1) : S128.Idx → BitVec 32)) (funext fun a => Fin.ext ?_)
  match a with
  | ⟨0, _⟩ => show t.val * 8 + (j 0).val = win0_2.index t (0 : Fin 2) * 8 + 1 * (j 0).val; omega
  | ⟨1, _⟩ => show (j 1).val = win0_2.index t (1 : Fin 2) * 235930 + 1 * (j 1).val; omega

/-- An index of the result array is in point `t`'s block iff each coordinate is in the block's range on its axis. -/
theorem mem_blk (t : Fin cfg0.N) (i : S128x235930.Idx) :
    i ∈ ((cfg0.win 2).blk t).view.set ↔ ∀ a : Fin 2, win0_2.index t a * S8x235930.size a ≤ (i a).val
      ∧ (i a).val < win0_2.index t a * S8x235930.size a + S8x235930.size a := by
  show i ∈ ((View.whole main_v1).slice (win0_2.rect t)).set ↔ _
  rw [View.set_slice_whole, Rect.mem_set_unit]
  exact Iff.rfl

/-- THE BLOCKS COVER THE ARRAY: row `r` is in the block of point `r / 8`. -/
theorem cover (i : S128x235930.Idx) : ∃ t : Fin cfg0.N, (cfg0.win 2).flush t = true ∧ i ∈ ((cfg0.win 2).blk t).view.set := by
  have hi0 := idx2_lt0 i
  have hi1 := idx2_lt1 i
  have hN : (i 0).val / 8 < cfg0.N := by
    show (i 0).val / 8 < grid0.N
    rw [N_0]; omega
  refine ⟨⟨(i 0).val / 8, hN⟩, flush0_2 _, ?_⟩
  rw [mem_blk]
  obtain ⟨-, -, -, -, e20, e21⟩ := idx_facts ⟨(i 0).val / 8, hN⟩
  intro a
  match a with
  | ⟨0, _⟩ =>
    show win0_2.index ⟨(i 0).val / 8, hN⟩ (0 : Fin 2) * 8 ≤ (i 0).val
      ∧ (i 0).val < win0_2.index ⟨(i 0).val / 8, hN⟩ (0 : Fin 2) * 8 + 8
    rw [e20]; show (i 0).val / 8 * 8 ≤ (i 0).val ∧ (i 0).val < (i 0).val / 8 * 8 + 8; omega
  | ⟨1, _⟩ =>
    show win0_2.index ⟨(i 0).val / 8, hN⟩ (1 : Fin 2) * 235930 ≤ (i 1).val
      ∧ (i 1).val < win0_2.index ⟨(i 0).val / 8, hN⟩ (1 : Fin 2) * 235930 + 235930
    rw [e21]; omega

/-- THE RESULT ARRAY after the run: the specification of the two argument arrays, where no start is negative. -/
theorem final (c : Dev nD)
    (hs : ∀ r : Fin 128, 0 ≤ ((m ((c : Thread nD τ).loc main_arg1) : S128.Idx → BitVec 32) (ix1 r)).toInt) :
    (dats m 0 c).arrAt 2 cfg0.N
      = crop (m ((c : Thread nD τ).loc main_arg0)) (m ((c : Thread nD τ).loc main_arg1) : S128.Idx → BitVec 32) := by
  rw [(dats m 0 c).arrAt_eq_of_cover 2
    (crop (V m c main_arg0) (m ((c : Thread nD τ).loc main_arg1) : S128.Idx → BitVec 32))
    (fun t _ => flushed_eq m c hs t) cover, V_main_arg0]

/-- The kernel's run re-posted: the result array at the specification of the arguments, the arguments unchanged. -/
theorem run
    (hs : ∀ (c : Dev nD) (r : Fin 128), 0 ≤ ((m ((c : Thread nD τ).loc main_arg1) : S128.Idx → BitVec 32) (ix1 r)).toInt) :
    θ_run defs (onTc (τ := τ) (main (F := F))) ⟨m, fun _ => 0, ρ⟩ fun r => ∀ c : Dev nD,
      r.2.mem ((c : Thread nD τ).loc main_v1)
          = crop (m ((c : Thread nD τ).loc main_arg0)) (m ((c : Thread nD τ).loc main_arg1) : S128.Idx → BitVec 32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hs c)), (h c).2⟩) (run_blocks m ρ)

end Cert.Crop.Blocks

end
-- ==== Proof.lean ====
/-
  The crop of one chunk out of every row of `audio` f32[128, 262144]: row `r` of the result f32[128, 235930] is row `r`
  of `audio` without the `26214` samples from position `starts r` on — column `j` of the result is `audio r j` for
  `j < starts r` and `audio r (j + 26214)` for `j ≥ starts r`, the comparison one of signed 32-bit words
  (Proof/CropSpec.lean, `crop`).

  The kernel runs on sixteen blocks of eight rows. In a block it walks the columns in chunks of `16384` and inside the
  chunk at offset `off` selects, at position `l`, between the two columns by the test `l ≥ starts r - off`, a wrapping
  subtraction; for a start that is not negative nothing wraps and the test is `off + l ≥ starts r`
  (Proof/CropSpec.lean `sge_sub_eq`). That no start is negative is the second conjunct of the precondition, read at a
  row (Proof/CropPre.lean); its first conjunct, the samples finite, is not used: no arithmetic is done on a sample. So the body leaves the block of the specification on its rows (Proof/CropChunk.lean,
  Proof/CropBody.lean), and the sixteen blocks the points write back fill the result array (Proof/CropBlocks.lean).

  The host program builds the column word `j + (26214 if j ≥ starts r else 0)` for every entry and takes `audio` along
  axis 1 at those words; the word is a column of the row, so `take_along_axis` neither wraps, clamps nor masks it, and
  what it gathers is the specification, whatever the starts are (Proof/LibTakeAlong.lean, Proof/CropRef.lean).

  Nothing was rewritten between the kernel and its idealization, so `preserves` is `True`. No sample is ever added,
  multiplied or compared: the result holds samples of `audio` moved, and the two programs agree on every extended real.
-/
import proofs.«154833_j21345987461560_2_alg».proof.Defs
import proofs.«154833_j21345987461560_2_alg».proof.Proof.Gen.Kernel
import proofs.«154833_j21345987461560_2_alg».proof.Proof.Gen.Kernel.Skeleton
import proofs.«154833_j21345987461560_2_alg».proof.Proof.Gen.Kernel.Launch
import proofs.«154833_j21345987461560_2_alg».proof.Proof.Gen.Kernel.Points
import proofs.«154833_j21345987461560_2_alg».proof.Proof.KernelFrame
import proofs.«154833_j21345987461560_2_alg».proof.Proof.Gen.KernelIdeal
import proofs.«154833_j21345987461560_2_alg».proof.Proof.Gen.KernelIdeal.Skeleton
import proofs.«154833_j21345987461560_2_alg».proof.Proof.Gen.KernelIdeal.Launch
import proofs.«154833_j21345987461560_2_alg».proof.Proof.Gen.KernelIdeal.Points
import proofs.«154833_j21345987461560_2_alg».proof.Proof.KernelIdealFrame
import proofs.«154833_j21345987461560_2_alg».proof.Proof.Gen.ReferenceIdeal
import proofs.«154833_j21345987461560_2_alg».proof.Proof.Gen.Pre_finite_inputs
import proofs.«154833_j21345987461560_2_alg».proof.Proof.KernelIdealValue
import proofs.«154833_j21345987461560_2_alg».proof.Proof.RefRun
import proofs.«154833_j21345987461560_2_alg».proof.Proof.RefRead
import proofs.«154833_j21345987461560_2_alg».proof.Proof.CropPre
import proofs.«154833_j21345987461560_2_alg».proof.Proof.CropRef
import proofs.«154833_j21345987461560_2_alg».proof.Proof.CropBlocks
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- So does the host program: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- Both programs end with the specification of the argument arrays: the kernel because under the precondition no start
    is negative, the host program outright. -/
theorem algebraic : Cert.algebraic_KernelIdeal_ReferenceIdeal := by
  intro m ρ m' ρ' hpre hagree
  have hs : ∀ (c : Dev Cert.KernelIdeal.nD) (r : Fin 128),
      0 ≤ ((m ((c : Thread Cert.KernelIdeal.nD Cert.KernelIdeal.τ).loc Cert.KernelIdeal.main_arg1) :
        Cert.KernelIdeal.S128.Idx → BitVec 32) (ix1 r)).toInt :=
    fun c r => Cert.Crop.Pre.starts_nonneg _ _ (hpre c) (ix1 r)
  refine ⟨fun c => Cert.Crop.crop (m ((c : Thread Cert.KernelIdeal.nD Cert.KernelIdeal.τ).loc Cert.KernelIdeal.main_arg0))
      (m ((c : Thread Cert.KernelIdeal.nD Cert.KernelIdeal.τ).loc Cert.KernelIdeal.main_arg1) : Cert.KernelIdeal.S128.Idx → BitVec 32),
    Cert.Crop.Blocks.run (F := Ideal) m ρ hs, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, Cert.Crop.Ref.ref_eq_crop, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
